-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S1x4096 : Shape := ⟨2, ![1, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S8192x4096, .i1⟩
  | .hbm, ⟨16, _⟩ => ⟨S_, .f32⟩
  | .hbm, ⟨17, _⟩ => ⟨S8192x4096, .f32⟩
  | .hbm, ⟨18, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)

variable [Facts₀]

class Facts : Prop extends Facts₀ where

variable [Facts]
-- ==== Proof.Capped.lean ====
/-
  The function both programs compute, stated once, index by index, over the literal shapes.

  For a matrix `x` of 8192 rows and 4096 columns and two vectors `w`, `b` of length 4096, the affine
  value of entry (r, k) is `y = x[r, k] · w[k] + b[k]` — column `k` of `x` is scaled by `w[k]` and shifted
  by `b[k]`, the same `w[k]`, `b[k]` on every row. The result keeps `y` where `0 < y ≤ 1` and is zero
  elsewhere. Nothing here depends on what a float is: the two comparisons, their conjunction and the
  selection are the float interface's own operations, applied to one entry at a time, so the definition
  is read the same way at every instance.
-/
import Idealize.ShloMosaic.PureOps.Ideal
import Idealize.ShloMosaic.Lib.ValueIdx

noncomputable section

namespace Cert.Capped

open Idealize.ShloMosaic Idealize.ShloMosaic.ValueIdx

variable {F : FTy → Type} [FloatOps F]

/-- One entry through the gate: `y` itself when `0 < y` and `y ≤ 1` both hold, zero otherwise. The bounds
    are the float patterns of 0 and of 1. -/
def gate (y : F .f32) : F .f32 :=
  Scalar.select
    (IntOp.andi (FloatOps.cmpf .ogt y (FloatOps.ofBits .f32 0x00000000#32))
      (FloatOps.cmpf .ole y (FloatOps.ofBits .f32 0x3F800000#32)))
    y (FloatOps.ofBits .f32 0x00000000#32)

/-- The affine value of one entry: the entry of `x` times its column's weight plus its column's shift. -/
def affine (xe we be : F .f32) : F .f32 := FloatOps.addf (FloatOps.mulf xe we) be

/-- The whole result: entry (r, k) is the gate of `x[r, k] · w[k] + b[k]`. -/
def capped (x : FVec F ⟨2, ![8192, 4096]⟩ .f32) (w b : FVec F ⟨1, ![4096]⟩ .f32) :
    FVec F ⟨2, ![8192, 4096]⟩ .f32 :=
  fun i => gate (affine (x i) (w (ix1 (i 1))) (b (ix1 (i 1))))

/-- The result at row `r`, column `k`, with the coordinates named. -/
theorem capped_ix2 (x : FVec F ⟨2, ![8192, 4096]⟩ .f32) (w b : FVec F ⟨1, ![4096]⟩ .f32)
    (r : Fin 8192) (k : Fin 4096) :
    capped x w b (ix2 r k) = gate (affine (x (ix2 r k)) (w (ix1 k)) (b (ix1 k))) := rfl

end Cert.Capped

end
-- ==== Proof.BlockCapped.lean ====
/-
  One output block of the kernel, entry by entry.

  At a grid point the body reads a block of 512 rows of `x` and the two single-row blocks that hold `w` and
  `b`, and leaves in the output block, at row `p` and column `k`, the gate of
  `(x-block)[p, k] · (w-row)[0, k] + (b-row)[0, k]`: the single row of weights and of shifts is repeated down the 512
  rows of the block, so only the column survives in what is read of them. This module says that over arbitrary
  vectors of the blocks' shapes, and then restates it against the whole arrays: if the three entries read are
  entries of `x`, `w`, `b` at an array index `i` and at `i`'s column, the entry left is the specification's at `i`.
-/
import proofs.«101553_j30794915512766_2_alg».proof.Proof.Gen.KernelIdeal.Value
import proofs.«101553_j30794915512766_2_alg».proof.Proof.Capped

noncomputable section

namespace Cert.KernelIdeal.BlockCapped

open Cert.KernelIdeal Cert.KernelIdeal.Gen Idealize.ShloMosaic Idealize.ShloMosaic.ValueIdx Cert.Capped

variable {F : FTy → Type} [FloatOps F]

/-- The body's loads and its store all start at the block's origin. -/
theorem origin : (![0, 0] : Fin 2 → Nat) = fun _ => 0 := funext fun a => by fin_cases a <;> rfl

/-! The places the block's entry (p, k) reads: the same place of the `x` block, and column `k` of the one row of
    the `w` and `b` blocks — three times each, once per use of the affine value (in each comparison and in the
    value selected). -/

theorem at_x0 (p : Fin 512) (k : Fin 4096) : Value.ix3_0 (ix2 p k) = ix2 p k :=
  funext fun a => match a with | ⟨0, _⟩ => rfl | ⟨1, _⟩ => rfl
theorem at_x1 (p : Fin 512) (k : Fin 4096) : Value.ix3_3 (ix2 p k) = ix2 p k :=
  funext fun a => match a with | ⟨0, _⟩ => rfl | ⟨1, _⟩ => rfl
theorem at_x2 (p : Fin 512) (k : Fin 4096) : Value.ix3_6 (ix2 p k) = ix2 p k :=
  funext fun a => match a with | ⟨0, _⟩ => rfl | ⟨1, _⟩ => rfl
theorem at_w0 (p : Fin 512) (k : Fin 4096) : Value.ix3_1 (ix2 p k) = ix2 (0 : Fin 1) k :=
  funext fun a => match a with | ⟨0, _⟩ => rfl | ⟨1, _⟩ => rfl
theorem at_w1 (p : Fin 512) (k : Fin 4096) : Value.ix3_4 (ix2 p k) = ix2 (0 : Fin 1) k :=
  funext fun a => match a with | ⟨0, _⟩ => rfl | ⟨1, _⟩ => rfl
theorem at_w2 (p : Fin 512) (k : Fin 4096) : Value.ix3_7 (ix2 p k) = ix2 (0 : Fin 1) k :=
  funext fun a => match a with | ⟨0, _⟩ => rfl | ⟨1, _⟩ => rfl
theorem at_b0 (p : Fin 512) (k : Fin 4096) : Value.ix3_2 (ix2 p k) = ix2 (0 : Fin 1) k :=
  funext fun a => match a with | ⟨0, _⟩ => rfl | ⟨1, _⟩ => rfl
theorem at_b1 (p : Fin 512) (k : Fin 4096) : Value.ix3_5 (ix2 p k) = ix2 (0 : Fin 1) k :=
  funext fun a => match a with | ⟨0, _⟩ => rfl | ⟨1, _⟩ => rfl
theorem at_b2 (p : Fin 512) (k : Fin 4096) : Value.ix3_8 (ix2 p k) = ix2 (0 : Fin 1) k :=
  funext fun a => match a with | ⟨0, _⟩ => rfl | ⟨1, _⟩ => rfl

/-- What the body leaves at row `p`, column `k` of the output block: the gate of the affine value of the `x`
    block's entry there with the weight and the shift of column `k`. -/
theorem out_entry (P0 : Vec F S512x4096 .f32) (P1 P2 : Vec F S1x4096 .f32) (p : Fin 512) (k : Fin 4096) :
    out0_3 P0 P1 P2 (ix2 p k)
      = gate (affine (P0 (ix2 p k)) (P1 (ix2 (0 : Fin 1) k)) (P2 (ix2 (0 : Fin 1) k))) := by
  unfold out0_3
  refine (Value.canon3_eq _ _ _ (ix2 p k)).trans ?_
  simp only [View.ld_unit_zero (S := S512x4096) origin, View.ld_unit_zero (S := S1x4096) origin]
  show Scalar.select (IntOp.andi (FloatOps.cmpf .ogt (FloatOps.addf (FloatOps.mulf (P0 (Value.ix3_0 (ix2 p k))) (P1 (Value.ix3_1 (ix2 p k)))) (P2 (Value.ix3_2 (ix2 p k)))) (Scalar.ofBits .f32 0x00000000#32))
      (FloatOps.cmpf .ole (FloatOps.addf (FloatOps.mulf (P0 (Value.ix3_3 (ix2 p k))) (P1 (Value.ix3_4 (ix2 p k)))) (P2 (Value.ix3_5 (ix2 p k)))) (Scalar.ofBits .f32 0x3F800000#32)))
      (FloatOps.addf (FloatOps.mulf (P0 (Value.ix3_6 (ix2 p k))) (P1 (Value.ix3_7 (ix2 p k)))) (P2 (Value.ix3_8 (ix2 p k)))) (Scalar.ofBits .f32 0x00000000#32) = _
  rw [at_x0, at_x1, at_x2, at_w0, at_w1, at_w2, at_b0, at_b1, at_b2]
  rfl

/-- The same entry against the whole arrays: when the block entries read are `x` at an array index `i` and `w`, `b`
    at `i`'s column, the entry left is the specification's entry at `i`. -/
theorem entry_of_blocks (X : FVec F ⟨2, ![8192, 4096]⟩ .f32) (W B : FVec F ⟨1, ![4096]⟩ .f32)
    (P0 : Vec F S512x4096 .f32) (P1 P2 : Vec F S1x4096 .f32) (p : Fin 512) (k : Fin 4096)
    (i : (⟨2, ![8192, 4096]⟩ : Shape).Idx)
    (hx : P0 (ix2 p k) = X i) (hw : P1 (ix2 (0 : Fin 1) k) = W (ix1 (i 1))) (hb : P2 (ix2 (0 : Fin 1) k) = B (ix1 (i 1))) :
    out0_3 P0 P1 P2 (ix2 p k) = capped X W B i := by
  rw [out_entry, hx, hw, hb]
  rfl

end Cert.KernelIdeal.BlockCapped

end
-- ==== Proof.KernelCapped.lean ====
/-
  The kernel's result array is the gated affine map of its arguments.

  The grid has 16 points; point `t` works on rows `512·t … 512·t + 511` of `x` and of the result (all 4096 columns),
  and at every point on the same single row holding `w` and the same single row holding `b`. Those two rows are
  written before the kernel starts: each is the length-4096 argument laid out as a 1 × 4096 array, so its entry
  (0, k) is the argument's entry `k`. Hence the three entries the body reads for the block's entry (p, k) are
  `x[512·t + p, k]`, `w[k]`, `b[k]`, and what point `t` writes back is the block of the specification at rows
  `512·t …`. Row `r` of the array lies in the block of point `r / 512`, so the 16 blocks cover the array and the
  array ends holding the specification everywhere.
-/
import proofs.«101553_j30794915512766_2_alg».proof.Proof.BlockCapped
import Idealize.ShloMosaic.Lib.StableHlo.Run

noncomputable section

namespace Cert.KernelIdeal.KernelCapped

open Cert.KernelIdeal Cert.KernelIdeal.Gen Idealize.ShloMosaic Idealize.ShloMosaic.TcCoe Idealize.SL.Sem
open Idealize.ShloMosaic.ValueIdx Cert.Capped
open Idealize.ShloMosaic.Pipeline (Dat)

variable {F : FTy → Type} [FloatOps F]
variable (m : (ℓ : Loc nD τ sig) → Buf (Elt F) ℓ) (ρ : Dev nD → PrngReg)

/-! ## Where each window's block sits at a grid point -/

/-- At point `t` the `x` block and the output block are block `t` along the rows and the only block along the
    columns; the `w` and `b` blocks are always their arrays' only block. Decided over the 16 points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The two rows written before the kernel starts -/

/-- The row of weights the kernel finds: the argument `w` laid out as one row. -/
theorem weights_row (c : Dev nD) :
    (V m c main_v0 : S1x4096.Idx → Elt F .f32)
      = shapeCast S1x4096 (m ((c : Thread nD τ).loc main_arg1)) shapeCasts_S4096_S1x4096 := by
  dsimp only [Gen.V, Gen.hostOps0]; after_results; rfl

/-- The row of shifts the kernel finds: the argument `b` laid out as one row. -/
theorem shifts_row (c : Dev nD) :
    (V m c main_v1 : S1x4096.Idx → Elt F .f32)
      = shapeCast S1x4096 (m ((c : Thread nD τ).loc main_arg2)) shapeCasts_S4096_S1x4096 := by
  dsimp only [Gen.V, Gen.hostOps0]; after_results; rfl

/-- A length-4096 vector laid out as one row, read at (0, k') of that row, is the vector's entry `k'`. -/
theorem row_entry (v : S4096.Idx → Elt F .f32) (j : S1x4096.Idx) (k : Fin 4096) (hk : (j 1).val = k.val) :
    shapeCast S1x4096 v shapeCasts_S4096_S1x4096 j = v (ix1 k) := by
  refine (shapeCast_addUnit_apply ![4096] v shapeCasts_S4096_S1x4096 j).trans (congrArg v ?_)
  funext a
  match a with
  | ⟨0, _⟩ => exact Fin.ext hk

/-! ## The three entries the body reads for the block's entry (p, k) at point `t` -/

/-- The `x` block's entry is `x` at the array index of the output block's entry (p, k). -/
theorem read_x (c : Dev nD) (t : Fin cfg0.N) (p : Fin 512) (k : Fin 4096) :
    iblk m c 0 t (ix2 p k)
      = m ((c : Thread nD τ).loc main_arg0) (((cfg0.win 3).blk t).view.emb (ix2 p k)) := by
  show V m c main_arg0 (((cfg0.win 0).blk t).view.emb (ix2 p k)) = _
  refine (congrFun (V_main_arg0 m c) _).trans (congrArg _ ?_)
  obtain ⟨e00, e01, -, -, -, -, e30, e31⟩ := block_indices t
  funext a; apply Fin.ext
  match a with
  | ⟨0, _⟩ => show win0_0.index t (0 : Fin 2) * 512 + 1 * p.val = win0_3.index t (0 : Fin 2) * 512 + 1 * p.val; omega
  | ⟨1, _⟩ => show win0_0.index t (1 : Fin 2) * 4096 + 1 * k.val = win0_3.index t (1 : Fin 2) * 4096 + 1 * k.val; omega

/-- The `w` block's entry (0, k) is `w` at the column of that array index. -/
theorem read_w (c : Dev nD) (t : Fin cfg0.N) (p : Fin 512) (k : Fin 4096) :
    iblk m c 1 t (ix2 (0 : Fin 1) k)
      = m ((c : Thread nD τ).loc main_arg1) (ix1 ((((cfg0.win 3).blk t).view.emb (ix2 p k)) 1)) := by
  show (V m c main_v0 : S1x4096.Idx → Elt F .f32) (((cfg0.win 1).blk t).view.emb (ix2 (0 : Fin 1) k)) = _
  rw [weights_row]
  obtain ⟨-, -, e10, e11, -, -, e30, e31⟩ := block_indices t
  refine row_entry _ _ _ ?_
  show win0_1.index t (1 : Fin 2) * 4096 + 1 * k.val = win0_3.index t (1 : Fin 2) * 4096 + 1 * k.val
  omega

/-- The `b` block's entry (0, k) is `b` at the column of that array index. -/
theorem read_b (c : Dev nD) (t : Fin cfg0.N) (p : Fin 512) (k : Fin 4096) :
    iblk m c 2 t (ix2 (0 : Fin 1) k)
      = m ((c : Thread nD τ).loc main_arg2) (ix1 ((((cfg0.win 3).blk t).view.emb (ix2 p k)) 1)) := by
  show (V m c main_v1 : S1x4096.Idx → Elt F .f32) (((cfg0.win 2).blk t).view.emb (ix2 (0 : Fin 1) k)) = _
  rw [shifts_row]
  obtain ⟨-, -, -, -, e20, e21, e30, e31⟩ := block_indices t
  refine row_entry _ _ _ ?_
  show win0_2.index t (1 : Fin 2) * 4096 + 1 * k.val = win0_3.index t (1 : Fin 2) * 4096 + 1 * k.val
  omega

/-! ## What a point writes back, and the whole array -/

/-- What point `t` writes back is block `t` of the specification of the argument arrays. -/
theorem flushed_eq (c : Dev nD) (t : Fin cfg0.N) :
    (dats m 0 c).flushed 3 t = ((cfg0.win 3).blk t).view.read (Elt F)
      (capped (m ((c : Thread nD τ).loc main_arg0)) (m ((c : Thread nD τ).loc main_arg1)) (m ((c : Thread nD τ).loc main_arg2))) := by
  rw [Value.flushed3]
  funext j
  obtain ⟨p, k, rfl⟩ : ∃ (p : Fin 512) (k : Fin 4096), j = ix2 p k := ⟨j 0, j 1, eq_ix2 j⟩
  exact BlockCapped.entry_of_blocks _ _ _ (iblk m c 0 t) (iblk m c 1 t) (iblk m c 2 t) p k
    (((cfg0.win 3).blk t).view.emb (ix2 p k)) (read_x m c t p k) (read_w m c t p k) (read_b m c t p k)

/-- An array index is in point `t`'s output block iff each coordinate is in the block's range on its axis. -/
theorem mem_block (t : Fin cfg0.N) (i : S8192x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v2).slice (win0_3.rect t)).set ↔ _
  rw [View.set_slice_whole, Rect.mem_set_unit]
  exact Iff.rfl

/-- Every array index is in the output block of the point its row falls in. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 16 := N_0
  have hlt : (i 0).val / 512 < cfg0.N := by rw [hN]; omega
  obtain ⟨-, -, -, -, -, -, e30, e31⟩ := block_indices ⟨(i 0).val / 512, hlt⟩
  have e30' : win0_3.index ⟨(i 0).val / 512, hlt⟩ (0 : Fin 2) = (i 0).val / 512 := e30
  refine ⟨⟨(i 0).val / 512, hlt⟩, flush0_3 _, ?_⟩
  rw [mem_block]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    omega
  | ⟨1, _⟩ =>
    show win0_3.index ⟨(i 0).val / 512, hlt⟩ (1 : Fin 2) * 4096 ≤ (i 1).val
      ∧ (i 1).val < win0_3.index ⟨(i 0).val / 512, hlt⟩ (1 : Fin 2) * 4096 + 4096
    omega

/-- The result array after the run is the specification of the argument arrays. -/
theorem final (c : Dev nD) :
    (dats m 0 c).arrAt 3 cfg0.N
      = capped (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the kernel's program terminates with the result array at the specification of
    the argument arrays, and the argument arrays as launched. -/
theorem run : θ_run defs (onTc (τ := τ) (main (F := F))) ⟨m, fun _ => 0, ρ⟩ fun r => ∀ c : Dev nD,
      r.2.mem ((c : Thread nD τ).loc main_v2)
        = capped (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelCapped

end
-- ==== Proof.RefCapped.lean ====
/-
  The reference computes the gated affine map.

  The reference forms `x · w + b` by first spreading each of `w`, `b` over a leading unit axis and then over
  all 8192 rows; read at an entry (r, k), both spreadings look only at the column, so the value spread to
  (r, k) is `w[k]` (respectively `b[k]`). The two bounds 0 and 1 and the fill value 0 are constants spread
  to every entry. What is left at (r, k) is the gate applied to `x[r, k] · w[k] + b[k]`, which is the
  specification's entry.
-/
import proofs.«101553_j30794915512766_2_alg».proof.Proof.Gen.ReferenceIdeal.Read
import proofs.«101553_j30794915512766_2_alg».proof.Proof.Capped

noncomputable section

namespace Cert.ReferenceIdeal.RefCapped

open Cert.ReferenceIdeal Cert.ReferenceIdeal.Read Idealize.ShloMosaic Idealize.ShloMosaic.ValueIdx Cert.Capped

variable {F : FTy → Type} [FloatOps F]

/-- Spreading `w` over a unit axis and then over the rows reads, at entry `i`, the column of `i`. -/
theorem col_of_weight (i : S8192x4096.Idx) : idx_main_v0 (idx_main_v1 i) = ix1 (i 1) :=
  funext fun a => match a with | ⟨0, _⟩ => rfl

/-- The same for `b`. -/
theorem col_of_shift (i : S8192x4096.Idx) : idx_main_v3 (idx_main_v4 i) = ix1 (i 1) :=
  funext fun a => match a with | ⟨0, _⟩ => rfl

/-- The reference's last stage is the specification, entry by entry. -/
theorem stage_eq (x : (⟨S8192x4096, .f32⟩ : BufTy).Contents (Elt F)) (w b : (⟨S4096, .f32⟩ : BufTy).Contents (Elt F)) :
    val_main_v12 (F := F) x w b = capped (F := F) x w b := by
  funext i
  rw [val_main_v12_apply, val_main_v10_apply, val_main_v7_apply, val_main_v9_apply, val_main_v5_apply,
    val_main_v2_apply, val_main_v4_apply, val_main_v1_apply, val_main_v3_apply, val_main_v0_apply,
    val_main_v6_apply, val_main_v8_apply, val_main_v11_apply, val_main_cst_apply, val_main_cst_0_apply,
    val_main_cst_1_apply, col_of_weight, col_of_shift]
  rfl

end Cert.ReferenceIdeal.RefCapped

end
-- ==== Proof.lean ====
/-
  A diagonal affine map followed by a capped gate: for `x` of 8192 rows and 4096 columns and vectors `w`, `b` of
  length 4096, entry (r, k) of the result is `y = x[r, k] · w[k] + b[k]` where `0 < y ≤ 1`, and zero elsewhere.

  The kernel computes it 512 rows at a time over 16 grid points, each point reading its rows of `x` and the one row
  that holds `w` and the one that holds `b`; the reference computes it on the whole arrays at once, after spreading
  `w` and `b` over all rows. Entry by entry the two apply the same operations — one product, one sum, the two
  comparisons against the same bounds, their conjunction, the selection against the same zero — to the same three
  numbers `x[r, k]`, `w[k]`, `b[k]`. So the two results are one function of the arguments
  (`Cert.Capped.capped`), with no law of arithmetic used between them: nothing is reassociated, distributed or
  cancelled, and the finiteness of the inputs is never called on.

  The parts: the specification (Proof/Capped.lean); the reference's last stage is the specification
  (Proof/RefCapped.lean); one output block of the kernel, entry by entry (Proof/BlockCapped.lean); the blocks of the
  16 points cover the result array, which therefore ends at the specification (Proof/KernelCapped.lean). The idealized
  kernel is the kernel's own text read over the extended reals — no operation was rewritten — so there is nothing to
  preserve.
-/
import proofs.«101553_j30794915512766_2_alg».proof.Defs
import proofs.«101553_j30794915512766_2_alg».proof.Proof.Gen.Kernel
import proofs.«101553_j30794915512766_2_alg».proof.Proof.Gen.Kernel.Frame
import proofs.«101553_j30794915512766_2_alg».proof.Proof.Gen.KernelIdeal
import proofs.«101553_j30794915512766_2_alg».proof.Proof.Gen.KernelIdeal.Frame
import proofs.«101553_j30794915512766_2_alg».proof.Proof.Gen.KernelIdeal.Value
import proofs.«101553_j30794915512766_2_alg».proof.Proof.Gen.ReferenceIdeal
import proofs.«101553_j30794915512766_2_alg».proof.Proof.Gen.ReferenceIdeal.Run
import proofs.«101553_j30794915512766_2_alg».proof.Proof.Gen.ReferenceIdeal.Read
import proofs.«101553_j30794915512766_2_alg».proof.Proof.Gen.Pre_finite_inputs
import proofs.«101553_j30794915512766_2_alg».proof.Proof.KernelCapped
import proofs.«101553_j30794915512766_2_alg».proof.Proof.RefCapped

noncomputable section

namespace Cert.Proof

open Idealize.ShloMosaic Idealize.ShloMosaic.TcCoe Idealize.SL.Sem

/-- The kernel as printed runs to the end, faults nowhere, and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on `x`, `w`, `b`, the kernel's result array and the reference's both end at the
    gated affine map of those arguments. -/
theorem algebraic : Cert.algebraic_KernelIdeal_ReferenceIdeal := by
  intro m ρ m' ρ' _ hagree
  refine ⟨_, Cert.KernelIdeal.KernelCapped.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefCapped.stage_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
